-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S40000x128 .f32) (main_arg1 : IVec S2x640000 32) (main_arg2 : FVec F S640000x128 .f32) (main_arg3 : FVec F S128x128 .f32) (main_arg4 : FVec F S128 .f32) (main_arg5 : FVec F S128x128 .f32) (main_arg6 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S40000x128 : Shape := ⟨2, ![40000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S10000x128 : Shape := ⟨2, ![10000, 128]⟩

abbrev nBuf : Space → Nat
  | .hbm => 49
  | .vmem => 16
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S640000x128, .f32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S1x128, .f32⟩
  | .hbm, ⟨29, _⟩ => ⟨S40000x128, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S_, .f32⟩
  | .hbm, ⟨44, _⟩ => ⟨S40000x128, .f32⟩
  | .hbm, ⟨45, _⟩ => ⟨S640000x1, .i32⟩
  | .hbm, ⟨46, _⟩ => ⟨S40000x128, .f32⟩
  | .hbm, ⟨47, _⟩ => ⟨S1x128, .f32⟩
  | .hbm, ⟨48, _⟩ => ⟨S40000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S40000x128.size a
  hwx0_0 : ∀ i : grid0.Coords, EltTy.bits .f32 = 32 ∨ (Rect.block (s := S40000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S40000x128.size a
  hwx0_1 : ∀ i : grid0.Coords, EltTy.bits .f32 = 32 ∨ (Rect.block (s := S40000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S40000x128.size a
  hwx0_4 : ∀ i : grid0.Coords, EltTy.bits .f32 = 32 ∨ (Rect.block (s := S40000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S40000x128.size a
  hwx1_0 : ∀ i : grid1.Coords, EltTy.bits .f32 = 32 ∨ (Rect.block (s := S40000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S40000x128.size a
  hwx1_1 : ∀ i : grid1.Coords, EltTy.bits .f32 = 32 ∨ (Rect.block (s := S40000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S40000x128.size a
  hwx1_4 : ∀ i : grid1.Coords, EltTy.bits .f32 = 32 ∨ (Rect.block (s := S40000x128) S10000x128.size (cc1_transform_4 i) (hinb1_4 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S640000x128, .f32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S40000x128, .f32⟩
  | .hbm, ⟨29, _⟩ => ⟨S40000x128, .f32⟩
  | .hbm, ⟨30, _⟩ => ⟨S1x128, .f32⟩
  | .hbm, ⟨31, _⟩ => ⟨S40000x128, .f32⟩
  | .hbm, ⟨32, _⟩ => ⟨S40000x128, .f32⟩
  | .hbm, ⟨33, _⟩ => ⟨S_, .f32⟩
  | .hbm, ⟨34, _⟩ => ⟨S40000x128, .f32⟩
  | .hbm, ⟨35, _⟩ => ⟨S40000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S640000x128, .f32⟩
  | .hbm, ⟨46, _⟩ => ⟨S_, .f32⟩
  | .hbm, ⟨47, _⟩ => ⟨S640000x128, .f32⟩
  | .hbm, ⟨48, _⟩ => ⟨S640000x128, .f32⟩
  | .hbm, ⟨49, _⟩ => ⟨S_, .f32⟩
  | .hbm, ⟨50, _⟩ => ⟨S40000x128, .f32⟩
  | .hbm, ⟨51, _⟩ => ⟨S640000x1, .i32⟩
  | .hbm, ⟨52, _⟩ => ⟨S40000x128, .f32⟩
  | .hbm, ⟨53, _⟩ => ⟨S40000x128, .f32⟩
  | .hbm, ⟨54, _⟩ => ⟨S40000x128, .f32⟩
  | .hbm, ⟨55, _⟩ => ⟨S1x128, .f32⟩
  | .hbm, ⟨56, _⟩ => ⟨S40000x128, .f32⟩
  | .hbm, ⟨57, _⟩ => ⟨S40000x128, .f32⟩
  | .hbm, ⟨58, _⟩ => ⟨S_, .f32⟩
  | .hbm, ⟨59, _⟩ => ⟨S40000x128, .f32⟩
  | .hbm, ⟨60, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_v21 : Ref sig .tc := ⟨.hbm, 35, rfl⟩
abbrev main_c_1 : Ref sig .tc := ⟨.hbm, 36, rfl⟩
abbrev main_v22 : Ref sig .tc := ⟨.hbm, 37, rfl⟩
abbrev main_v23 : Ref sig .tc := ⟨.hbm, 38, rfl⟩
abbrev main_c_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call2_cst : Ref sig .tc := ⟨.hbm, 46, rfl⟩
abbrev main_call2_v0 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call3_cst : Ref sig .tc := ⟨.hbm, 58, rfl⟩
abbrev main_call3_v0 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.KernelRun.lean ====
/-
  The two-layer message-passing program, run from any launch memory: every weakly fair execution
  terminates, nothing faults, the seven argument arrays end as launched, and the result array ends at
  the contents the last kernel region leaves — the write-backs of its four row blocks folded over the
  array as the region found it. The contents of every buffer at each boundary between a stretch of host
  operations and a kernel region form a chain (launch, after the gather/add/relu/scatter of layer one,
  after region one, after the same host operations on the first layer's output, after region two); the
  final state is read against the last link of that chain, and here the result buffer is kept in that
  reading beside the arguments.
-/
import proofs.«144178_j1073741824404_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array holds the last
    boundary's contents of its buffer, and each argument array holds what it held at launch. -/
theorem run_result : θ_run defs (onTc (τ := τ) (main (F := F))) ⟨m, fun _ => 0, ρ⟩ (fun r => ∀ c : Dev nD,
      r.2.mem ((c.tc : Thread nD τ).loc main_v31) = W8 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v31 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Run

end
-- ==== Proof.Spec.lean ====
/-
  The dense update of one message-passing layer, as a function of whole arrays, index by index.

  For node features `y` and aggregated messages `a` (both 40000 × 128), weights `W` (128 × 128) and a bias `b`
  (128), the entry at row `r`, column `c` is

      max ( ∑ₖ (y[r,k] + a[r,k]) · W[k,c]  +  b[c] ,  0 )

  over the extended reals: the rectified affine image of row `r` of `y + a`. Only row `r` of `y` and `a`, column
  `c` of `W` and entry `c` of `b` enter. Nothing here needs the summands to be finite: the two programs compute
  this same expression, so no law beyond reindexing a finite sum is used.
-/
import Idealize.ShloMosaic.PureOps.Ideal
import Idealize.ShloMosaic.Lib.ValueIdx

noncomputable section

namespace Cert.Gnn

open Idealize.ShloMosaic Idealize.ShloMosaic.ValueIdx

/-- Node-feature arrays: 40000 rows of 128 features. -/
abbrev Nodes : Shape := ⟨2, ![40000, 128]⟩
/-- Weight matrices. -/
abbrev Wts : Shape := ⟨2, ![128, 128]⟩
/-- Bias vectors. -/
abbrev Bias : Shape := ⟨1, ![128]⟩

/-- The zero the rectifier compares with: the all-zero float pattern, which is the real number 0. -/
abbrev zeroF : EReal := Ideal.ofBits .f32 0x00000000#32

/-- Entry (r, c) of the dense update. -/
def denseAt (y a : Nodes.Idx → EReal) (W : Wts.Idx → EReal) (b : Bias.Idx → EReal) (r : Fin 40000) (c : Fin 128) : EReal :=
  max ((∑ k : Fin 128, (y (ix2 r k) + a (ix2 r k)) * W (ix2 k c)) + b (ix1 c)) zeroF

/-- The dense update as an array. -/
def dense (y a : Nodes.Idx → EReal) (W : Wts.Idx → EReal) (b : Bias.Idx → EReal) : Nodes.Idx → EReal :=
  fun i => denseAt y a W b (i 0) (i 1)

theorem dense_ix2 (y a : Nodes.Idx → EReal) (W : Wts.Idx → EReal) (b : Bias.Idx → EReal) (r : Fin 40000) (c : Fin 128) :
    dense y a W b (ix2 r c) = denseAt y a W b r c := rfl

/-- Two layers: the second update takes the first one's output as its features, and messages aggregated from that
    output by the same aggregation `agg` (gather along edges, add edge attributes, rectify, sum into destinations). -/
def twoLayers (agg : (Nodes.Idx → EReal) → (Nodes.Idx → EReal)) (x : Nodes.Idx → EReal)
    (W₁ : Wts.Idx → EReal) (b₁ : Bias.Idx → EReal) (W₂ : Wts.Idx → EReal) (b₂ : Bias.Idx → EReal) : Nodes.Idx → EReal :=
  dense (dense x (agg x) W₁ b₁) (agg (dense x (agg x) W₁ b₁)) W₂ b₂

end Cert.Gnn

end
-- ==== Proof.KernelBody.lean ====
/-
  The kernel body's stored value, read at one entry of its 10000-row block.

  The body loads a block of node features `x0`, the matching block of aggregated messages `x1`, the whole weight
  matrix `x2` and the bias as a 1 × 128 row `x3`; it stores max((x0 + x1) · x2 + x3, 0), the product being a matrix
  product into a zero accumulator. At row `p` of the block and column `q` that is
  max(∑ₖ (x0[p,k] + x1[p,k]) · x2[k,q] + x3[0,q], 0): a matrix product into zero is the plain sum over the one
  contracted axis, a shape cast to the same shape is the identity, and broadcasting a one-row array along rows reads
  its row 0.
-/
import proofs.«144178_j1073741824404_2_alg».proof.Proof.Gen.KernelIdeal.Skeleton
import proofs.«144178_j1073741824404_2_alg».proof.Proof.Gen.KernelIdeal
import proofs.«144178_j1073741824404_2_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.Gnn
open Idealize.ShloMosaic Idealize.ShloMosaic.TcCoe Idealize.ShloMosaic.ValueIdx

/-- Entry (p, q) of one block's dense update, from the loaded blocks. -/
def blockAt (x0 x1 : S10000x128.Idx → EReal) (x2 : S128x128.Idx → EReal) (x3 : S1x128.Idx → EReal)
    (p : Fin 10000) (q : Fin 128) : EReal :=
  max ((∑ k : Fin 128, (x0 (ix2 p k) + x1 (ix2 p k)) * x2 (ix2 k q)) + x3 (ix2 (0 : Fin 1) q)) zeroF

/-! The operand indices of the body's matrix product at an output index and a contraction index: the left operand is
    read at (row, k), the right at (k, column). -/
theorem lhs_row (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs_col (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs_row (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs_col (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The matrix product of the body at an entry: the sum over the contracted axis, indexed by `Fin 128`. -/
theorem matmul_at (l : FVec Ideal S10000x128 .f32) (r : FVec Ideal S128x128 .f32) (p : Fin 10000) (q : Fin 128) :
    matmul (F := Ideal) dot_S10000x128_S128x128_S10000x128_1_0_0_1_n_n none l r (constant S10000x128 .f32 0x00000000#32) (ix2 p q)
      = ∑ k : Fin 128, l (ix2 p k) * r (ix2 k q) := by
  unfold matmul
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The bias row broadcast along the block's rows reads its row 0. -/
theorem bias_at (x3 : S1x128.Idx → EReal) (p : Fin 10000) (q : Fin 128) :
    broadcastTo S10000x128 x3 broadcasts_S1x128_S10000x128 (ix2 p q) = x3 (ix2 (0 : Fin 1) q) :=
  broadcastTo_apply x3 broadcasts_S1x128_S10000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The first region's stored value at an entry. -/
theorem pay0_at (x0 x1 : Vec Ideal S10000x128 .f32) (x2 : Vec Ideal S128x128 .f32) (x3 : Vec Ideal S1x128 .f32)
    (p : Fin 10000) (q : Fin 128) :
    k0_pay1 (F := Ideal) x0 x1 x2 x3 (ix2 p q) = blockAt x0 x1 x2 x3 p q := by
  unfold k0_pay1 blockAt
  rw [shapeCast_self, shapeCast_self]
  refine (maximumf_apply _ _ _).trans ?_
  rw [broadcast_apply, addf_apply, matmul_at, bias_at]
  refine congrArg (fun s => max (s + x3 (ix2 (0 : Fin 1) q)) zeroF) (Finset.sum_congr rfl fun k _ => ?_)
  rw [addf_apply]

/-- The second region's stored value at an entry (its features pass through one more identity cast). -/
theorem pay1_at (x0 x1 : Vec Ideal S10000x128 .f32) (x2 : Vec Ideal S128x128 .f32) (x3 : Vec Ideal S1x128 .f32)
    (p : Fin 10000) (q : Fin 128) :
    k1_pay1 (F := Ideal) x0 x1 x2 x3 (ix2 p q) = blockAt x0 x1 x2 x3 p q := by
  unfold k1_pay1 blockAt
  rw [shapeCast_self, shapeCast_self, shapeCast_self]
  refine (maximumf_apply _ _ _).trans ?_
  rw [broadcast_apply, addf_apply, matmul_at, bias_at]
  refine congrArg (fun s => max (s + x3 (ix2 (0 : Fin 1) q)) zeroF) (Finset.sum_congr rfl fun k _ => ?_)
  rw [addf_apply]

end Cert.KernelIdeal.Body

end
-- ==== Proof.Region0.lean ====
/-
  The first kernel region's output array, as one function of the arrays the region finds.

  The region walks four grid points; point `t` reads rows 10000·t … 10000·t + 9999 of the node features and of the
  aggregated messages, the whole weight matrix and the whole one-row bias, and writes back the same rows of the
  output. Each written block is the dense update of exactly those rows, so block `t` of the output is block `t` of
  the dense update of the whole arrays; the four blocks tile the 40000 rows (row `r` lies in block `r / 10000`), so
  the output array IS the dense update of the whole arrays. Stated at any contents `V` of the buffers at the region's
  entry.
-/
import proofs.«144178_j1073741824404_2_alg».proof.Proof.Gen.KernelIdeal.Frame
import proofs.«144178_j1073741824404_2_alg».proof.Proof.KernelBody
import Idealize.ShloMosaic.Lib.Pipeline.Value

set_option maxRecDepth 16384

noncomputable section

namespace Cert.KernelIdeal.Region0

open Cert.KernelIdeal Cert.KernelIdeal.Gen Cert.KernelIdeal.Body Cert.Gnn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The one-row bias array read as a vector: entry `c` is row 0, column `c`. -/
abbrev rowAsVec (b : S1x128.Idx → EReal) : Bias.Idx → EReal := fun l => b (ix2 (0 : Fin 1) (l 0))

/-- The dense update of the arrays the region finds. -/
abbrev whole (c : Dev nD) : Nodes.Idx → EReal :=
  dense (V c main_arg0) (V c main_v15) (V c main_arg3) (rowAsVec (V c main_v16))

/-- The printed index maps over the grid: features, messages and output move together down the rows, one block per
    point, in the only column block; weights and bias stay at their one block. -/
theorem index_maps : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 3 ∧ win0_4.index t (1 : Fin 2) = 0 :=
  (by decide +kernel : ∀ t : Fin grid0.N, _)

/-- Every row block of the output is some point's. -/
theorem index_onto : ∀ q : Fin 4, ∃ t : Fin cfg0.N, win0_4.index t = ![q.val, 0] :=
  (by decide +kernel : ∀ q : Fin 4, ∃ t : Fin grid0.N, win0_4.index t = ![q.val, 0])

/-- The value stored at entry `j` of a block is the dense update at the array entry `i` that `j` is, `T` blocks
    down: provided each loaded block holds the rows of its array that the block covers. -/
theorem stored_eq_dense (x0 x1 : Vec Ideal S10000x128 .f32) (x2 : Vec Ideal S128x128 .f32) (x3 : Vec Ideal S1x128 .f32)
    (y a : Nodes.Idx → EReal) (W : Wts.Idx → EReal) (b : S1x128.Idx → EReal) (T : Nat)
    (h0 : ∀ (j' : S10000x128.Idx) (i' : Nodes.Idx), (i' 0).val = T * 10000 + (j' 0).val → (i' 1).val = (j' 1).val → x0 j' = y i')
    (h1 : ∀ (j' : S10000x128.Idx) (i' : Nodes.Idx), (i' 0).val = T * 10000 + (j' 0).val → (i' 1).val = (j' 1).val → x1 j' = a i')
    (h2 : ∀ j' : S128x128.Idx, x2 j' = W j') (h3 : ∀ j' : S1x128.Idx, x3 j' = b j')
    (j : S10000x128.Idx) (i : Nodes.Idx) (hr : (i 0).val = T * 10000 + (j 0).val) (hc : (i 1).val = (j 1).val) :
    k0_pay1 (F := Ideal) x0 x1 x2 x3 j = dense y a W (rowAsVec b) i := by
  obtain ⟨p, q, rfl⟩ : ∃ (p : Fin 10000) (q : Fin 128), j = ix2 p q := ⟨j 0, j 1, eq_ix2 j⟩
  obtain ⟨r, c, rfl⟩ : ∃ (r : Fin 40000) (c : Fin 128), i = ix2 r c := ⟨i 0, i 1, eq_ix2 i⟩
  have hr' : r.val = T * 10000 + p.val := hr
  have hc' : c = q := Fin.ext hc
  subst hc'
  rw [pay0_at, dense_ix2]
  unfold blockAt denseAt
  rw [h3]
  refine congrArg (fun s => max (s + b (ix2 (0 : Fin 1) c)) zeroF) (Finset.sum_congr rfl fun k _ => ?_)
  rw [h0 (ix2 p k) (ix2 r k) hr' rfl, h1 (ix2 p k) (ix2 r k) hr' rfl, h2]

/-- WHAT POINT `t` WRITES BACK is block `t` of the dense update of the whole arrays. -/
theorem written_back (c : Dev nD) (t : Fin cfg0.N) :
    (dat0 V c).flushed 4 t = ((cfg0.win 4).blk t).view.read (Elt Ideal) (whole V c) := by
  show (cfg0.win 4).cut (grid0.coords t) ((dat0 V c).after 4 t) = _
  rw [after0_4]
  unfold out0_4
  rw [View.canon_unit_zero origin]
  simp only [View.ld_unit_zero (S := S10000x128) origin, View.ld_unit_zero (S := S128x128) origin, View.ld_unit_zero (S := S1x128) origin]
  obtain ⟨e0, e1, e2, e3, e4, e5, e6, e7, e8, e9⟩ := index_maps t
  funext j
  refine stored_eq_dense (iblk0 V c 0 t) (iblk0 V c 1 t) (iblk0 V c 2 t) (iblk0 V c 3 t)
    (V c main_arg0) (V c main_v15) (V c main_arg3) (V c main_v16) (win0_4.index t (0 : Fin 2)) ?_ ?_ ?_ ?_ j
    (((cfg0.win 4).blk t).view.emb j) ?_ ?_
  · intro j' i' hr hc
    show V c main_arg0 (((cfg0.win 0).blk t).view.emb j') = V c main_arg0 i'
    refine congrArg _ (funext fun a => Fin.ext ?_)
    match a with
    | ⟨0, _⟩ => show win0_0.index t (0 : Fin 2) * 10000 + 1 * (j' 0).val = (i' 0).val; omega
    | ⟨1, _⟩ => show win0_0.index t (1 : Fin 2) * 128 + 1 * (j' 1).val = (i' 1).val; omega
  · intro j' i' hr hc
    show V c main_v15 (((cfg0.win 1).blk t).view.emb j') = V c main_v15 i'
    refine congrArg _ (funext fun a => Fin.ext ?_)
    match a with
    | ⟨0, _⟩ => show win0_1.index t (0 : Fin 2) * 10000 + 1 * (j' 0).val = (i' 0).val; omega
    | ⟨1, _⟩ => show win0_1.index t (1 : Fin 2) * 128 + 1 * (j' 1).val = (i' 1).val; omega
  · intro j'
    show V c main_arg3 (((cfg0.win 2).blk t).view.emb j') = V c main_arg3 j'
    refine congrArg _ (funext fun a => Fin.ext ?_)
    match a with
    | ⟨0, _⟩ => show win0_2.index t (0 : Fin 2) * 128 + 1 * (j' 0).val = (j' 0).val; omega
    | ⟨1, _⟩ => show win0_2.index t (1 : Fin 2) * 128 + 1 * (j' 1).val = (j' 1).val; omega
  · intro j'
    show V c main_v16 (((cfg0.win 3).blk t).view.emb j') = V c main_v16 j'
    refine congrArg _ (funext fun a => Fin.ext ?_)
    match a with
    | ⟨0, _⟩ => show win0_3.index t (0 : Fin 2) * 1 + 1 * (j' 0).val = (j' 0).val; omega
    | ⟨1, _⟩ => show win0_3.index t (1 : Fin 2) * 128 + 1 * (j' 1).val = (j' 1).val; omega
  · show win0_4.index t (0 : Fin 2) * 10000 + 1 * (j 0).val = win0_4.index t (0 : Fin 2) * 10000 + (j 0).val; omega
  · show win0_4.index t (1 : Fin 2) * 128 + 1 * (j 1).val = (j 1).val; omega

/-- An index of the output array is in point `t`'s block iff each coordinate is in the block's range on its axis. -/
theorem mem_block (t : Fin cfg0.N) (i : S40000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v17).slice (win0_4.rect t)).set ↔ _
  rw [View.set_slice_whole, Rect.mem_set_unit]
  exact Iff.rfl

/-- Every entry of the output lies in the block of the point its row selects. -/
theorem tiled (i : S40000x128.Idx) : ∃ t : Fin cfg0.N, (cfg0.win 4).flush t = true ∧ i ∈ ((cfg0.win 4).blk t).view.set := by
  have hi0 : (i 0).val < 40000 := (i 0).isLt
  have hi1 : (i 1).val < 128 := (i 1).isLt
  obtain ⟨t, ht⟩ := index_onto ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-- THE OUTPUT ARRAY after the region: the dense update of the arrays the region found. -/
theorem output (c : Dev nD) : (dat0 V c).arrAt 4 cfg0.N = whole V c :=
  (dat0 V c).arrAt_eq_of_cover 4 (whole V c) (fun t _ => written_back V c t) (tiled)

end Cert.KernelIdeal.Region0

end
-- ==== Proof.Region1.lean ====
/-
  The second kernel region's output array, as one function of the arrays the region finds.

  The region walks four grid points; point `t` reads rows 10000·t … 10000·t + 9999 of the node features and of the
  aggregated messages, the whole weight matrix and the whole one-row bias, and writes back the same rows of the
  output. Each written block is the dense update of exactly those rows, so block `t` of the output is block `t` of
  the dense update of the whole arrays; the four blocks tile the 40000 rows (row `r` lies in block `r / 10000`), so
  the output array IS the dense update of the whole arrays. Stated at any contents `V` of the buffers at the region's
  entry.
-/
import proofs.«144178_j1073741824404_2_alg».proof.Proof.Gen.KernelIdeal.Frame
import proofs.«144178_j1073741824404_2_alg».proof.Proof.KernelBody
import Idealize.ShloMosaic.Lib.Pipeline.Value

set_option maxRecDepth 16384

noncomputable section

namespace Cert.KernelIdeal.Region1

open Cert.KernelIdeal Cert.KernelIdeal.Gen Cert.KernelIdeal.Body Cert.Gnn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The one-row bias array read as a vector: entry `c` is row 0, column `c`. -/
abbrev rowAsVec (b : S1x128.Idx → EReal) : Bias.Idx → EReal := fun l => b (ix2 (0 : Fin 1) (l 0))

/-- The dense update of the arrays the region finds. -/
abbrev whole (c : Dev nD) : Nodes.Idx → EReal :=
  dense (V c main_v17) (V c main_v29) (V c main_arg5) (rowAsVec (V c main_v30))

/-- The printed index maps over the grid: features, messages and output move together down the rows, one block per
    point, in the only column block; weights and bias stay at their one block. -/
theorem index_maps : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 3 ∧ win1_4.index t (1 : Fin 2) = 0 :=
  (by decide +kernel : ∀ t : Fin grid1.N, _)

/-- Every row block of the output is some point's. -/
theorem index_onto : ∀ q : Fin 4, ∃ t : Fin cfg1.N, win1_4.index t = ![q.val, 0] :=
  (by decide +kernel : ∀ q : Fin 4, ∃ t : Fin grid1.N, win1_4.index t = ![q.val, 0])

/-- The value stored at entry `j` of a block is the dense update at the array entry `i` that `j` is, `T` blocks
    down: provided each loaded block holds the rows of its array that the block covers. -/
theorem stored_eq_dense (x0 x1 : Vec Ideal S10000x128 .f32) (x2 : Vec Ideal S128x128 .f32) (x3 : Vec Ideal S1x128 .f32)
    (y a : Nodes.Idx → EReal) (W : Wts.Idx → EReal) (b : S1x128.Idx → EReal) (T : Nat)
    (h0 : ∀ (j' : S10000x128.Idx) (i' : Nodes.Idx), (i' 0).val = T * 10000 + (j' 0).val → (i' 1).val = (j' 1).val → x0 j' = y i')
    (h1 : ∀ (j' : S10000x128.Idx) (i' : Nodes.Idx), (i' 0).val = T * 10000 + (j' 0).val → (i' 1).val = (j' 1).val → x1 j' = a i')
    (h2 : ∀ j' : S128x128.Idx, x2 j' = W j') (h3 : ∀ j' : S1x128.Idx, x3 j' = b j')
    (j : S10000x128.Idx) (i : Nodes.Idx) (hr : (i 0).val = T * 10000 + (j 0).val) (hc : (i 1).val = (j 1).val) :
    k1_pay1 (F := Ideal) x0 x1 x2 x3 j = dense y a W (rowAsVec b) i := by
  obtain ⟨p, q, rfl⟩ : ∃ (p : Fin 10000) (q : Fin 128), j = ix2 p q := ⟨j 0, j 1, eq_ix2 j⟩
  obtain ⟨r, c, rfl⟩ : ∃ (r : Fin 40000) (c : Fin 128), i = ix2 r c := ⟨i 0, i 1, eq_ix2 i⟩
  have hr' : r.val = T * 10000 + p.val := hr
  have hc' : c = q := Fin.ext hc
  subst hc'
  rw [pay1_at, dense_ix2]
  unfold blockAt denseAt
  rw [h3]
  refine congrArg (fun s => max (s + b (ix2 (0 : Fin 1) c)) zeroF) (Finset.sum_congr rfl fun k _ => ?_)
  rw [h0 (ix2 p k) (ix2 r k) hr' rfl, h1 (ix2 p k) (ix2 r k) hr' rfl, h2]

/-- WHAT POINT `t` WRITES BACK is block `t` of the dense update of the whole arrays. -/
theorem written_back (c : Dev nD) (t : Fin cfg1.N) :
    (dat1 V c).flushed 4 t = ((cfg1.win 4).blk t).view.read (Elt Ideal) (whole V c) := by
  show (cfg1.win 4).cut (grid1.coords t) ((dat1 V c).after 4 t) = _
  rw [after1_4]
  unfold out1_4
  rw [View.canon_unit_zero origin]
  simp only [View.ld_unit_zero (S := S10000x128) origin, View.ld_unit_zero (S := S128x128) origin, View.ld_unit_zero (S := S1x128) origin]
  obtain ⟨e0, e1, e2, e3, e4, e5, e6, e7, e8, e9⟩ := index_maps t
  funext j
  refine stored_eq_dense (iblk1 V c 0 t) (iblk1 V c 1 t) (iblk1 V c 2 t) (iblk1 V c 3 t)
    (V c main_v17) (V c main_v29) (V c main_arg5) (V c main_v30) (win1_4.index t (0 : Fin 2)) ?_ ?_ ?_ ?_ j
    (((cfg1.win 4).blk t).view.emb j) ?_ ?_
  · intro j' i' hr hc
    show V c main_v17 (((cfg1.win 0).blk t).view.emb j') = V c main_v17 i'
    refine congrArg _ (funext fun a => Fin.ext ?_)
    match a with
    | ⟨0, _⟩ => show win1_0.index t (0 : Fin 2) * 10000 + 1 * (j' 0).val = (i' 0).val; omega
    | ⟨1, _⟩ => show win1_0.index t (1 : Fin 2) * 128 + 1 * (j' 1).val = (i' 1).val; omega
  · intro j' i' hr hc
    show V c main_v29 (((cfg1.win 1).blk t).view.emb j') = V c main_v29 i'
    refine congrArg _ (funext fun a => Fin.ext ?_)
    match a with
    | ⟨0, _⟩ => show win1_1.index t (0 : Fin 2) * 10000 + 1 * (j' 0).val = (i' 0).val; omega
    | ⟨1, _⟩ => show win1_1.index t (1 : Fin 2) * 128 + 1 * (j' 1).val = (i' 1).val; omega
  · intro j'
    show V c main_arg5 (((cfg1.win 2).blk t).view.emb j') = V c main_arg5 j'
    refine congrArg _ (funext fun a => Fin.ext ?_)
    match a with
    | ⟨0, _⟩ => show win1_2.index t (0 : Fin 2) * 128 + 1 * (j' 0).val = (j' 0).val; omega
    | ⟨1, _⟩ => show win1_2.index t (1 : Fin 2) * 128 + 1 * (j' 1).val = (j' 1).val; omega
  · intro j'
    show V c main_v30 (((cfg1.win 3).blk t).view.emb j') = V c main_v30 j'
    refine congrArg _ (funext fun a => Fin.ext ?_)
    match a with
    | ⟨0, _⟩ => show win1_3.index t (0 : Fin 2) * 1 + 1 * (j' 0).val = (j' 0).val; omega
    | ⟨1, _⟩ => show win1_3.index t (1 : Fin 2) * 128 + 1 * (j' 1).val = (j' 1).val; omega
  · show win1_4.index t (0 : Fin 2) * 10000 + 1 * (j 0).val = win1_4.index t (0 : Fin 2) * 10000 + (j 0).val; omega
  · show win1_4.index t (1 : Fin 2) * 128 + 1 * (j 1).val = (j 1).val; omega

/-- An index of the output array is in point `t`'s block iff each coordinate is in the block's range on its axis. -/
theorem mem_block (t : Fin cfg1.N) (i : S40000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v31).slice (win1_4.rect t)).set ↔ _
  rw [View.set_slice_whole, Rect.mem_set_unit]
  exact Iff.rfl

/-- Every entry of the output lies in the block of the point its row selects. -/
theorem tiled (i : S40000x128.Idx) : ∃ t : Fin cfg1.N, (cfg1.win 4).flush t = true ∧ i ∈ ((cfg1.win 4).blk t).view.set := by
  have hi0 : (i 0).val < 40000 := (i 0).isLt
  have hi1 : (i 1).val < 128 := (i 1).isLt
  obtain ⟨t, ht⟩ := index_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- THE OUTPUT ARRAY after the region: the dense update of the arrays the region found. -/
theorem output (c : Dev nD) : (dat1 V c).arrAt 4 cfg1.N = whole V c :=
  (dat1 V c).arrAt_eq_of_cover 4 (whole V c) (fun t _ => written_back V c t) (tiled)

end Cert.KernelIdeal.Region1

end
-- ==== Proof.KernelAgg.lean ====
/-
  The message aggregation of one layer, as one function of whole arrays — carried through the proof unopened.

  For node features `x`, edge sources `src` and destinations `dst` (640000 each) and edge attributes `ea`:
  negative sources are wrapped by adding 40000, the source rows of `x` are gathered, the edge attributes are added,
  the sum is rectified, and the rectified messages are summed into the rows their destinations name, starting from
  zeros. Both programs apply exactly these host operations, so nothing about gathering or scattering is needed
  beyond its being the same function on both sides.
-/
import proofs.«144178_j1073741824404_2_alg».proof.KernelIdeal
import proofs.«144178_j1073741824404_2_alg».proof.Proof.Gen.KernelIdeal
import Idealize.ShloMosaic.PureOps.Ideal

noncomputable section

namespace Cert.KernelIdeal.HostSide

open Cert.KernelIdeal Cert.KernelIdeal.Gen
open Idealize.ShloMosaic Idealize.ShloMosaic.TcCoe

/-- Row 0 of the 2 × 640000 edge list, as a vector: the edges' sources. -/
def srcOf (ei : (⟨S2x640000, .i32⟩ : BufTy).Contents (Elt Ideal)) : (⟨S640000, .i32⟩ : BufTy).Contents (Elt Ideal) :=
  shapeCast _ (extractStridedSlice S1x640000 ![0, 0] ei slices_S2x640000_S1x640000_0_0) shapeCasts_S1x640000_S640000

/-- Row 1 of the edge list: the edges' destinations. -/
def dstOf (ei : (⟨S2x640000, .i32⟩ : BufTy).Contents (Elt Ideal)) : (⟨S640000, .i32⟩ : BufTy).Contents (Elt Ideal) :=
  shapeCast _ (extractStridedSlice S1x640000 ![1, 0] ei slices_S2x640000_S1x640000_1_0) shapeCasts_S1x640000_S640000

/-- Gather along edges, add edge attributes, rectify, sum into destinations. -/
def aggregate (x : (⟨S40000x128, .f32⟩ : BufTy).Contents (Elt Ideal)) (src dst : (⟨S640000, .i32⟩ : BufTy).Contents (Elt Ideal))
    (ea : (⟨S640000x128, .f32⟩ : BufTy).Contents (Elt Ideal)) : (⟨S40000x128, .f32⟩ : BufTy).Contents (Elt Ideal) :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0 dst)
    (maximumf
      (addf
        (Host.gather gather_S40000x128_S640000x1_S640000x128_1_0_n_n_0_1_1128 x
          (broadcastInDim S640000x1 ![0] bcast_S640000_S640000x1_0
            (select (cmpi .slt src (broadcastInDim S640000 ![] bcast_S_S640000 (constantI S_ 32 0#32)))
              (addi src (broadcastInDim S640000 ![] bcast_S_S640000 (constantI S_ 32 40000#32))) src)))
        ea)
      (broadcastInDim S640000x128 ![] bcast_S_S640000x128 (constant (F := Ideal) S_ .f32 0x00000000#32)))

end Cert.KernelIdeal.HostSide

end
-- ==== Proof.Entry0.lean ====
/-
  What the first kernel region finds in its four input arrays.

  Before the first region the program slices the edge list into sources and destinations, gathers, adds, rectifies
  and scatters (the aggregation of the first layer, applied to the node features as launched), and reshapes the
  first bias to a 1 × 128 row. No host operation writes an argument array. So at the region's entry: the features
  are the launched node features, the messages are their aggregation, the weights are the launched first weight
  matrix, the bias row is the launched first bias recast.
-/
import proofs.«144178_j1073741824404_2_alg».proof.Proof.Gen.KernelIdeal.Frame
import proofs.«144178_j1073741824404_2_alg».proof.Proof.KernelAgg
import Idealize.ShloMosaic.Lib.StableHlo.Run

set_option maxRecDepth 16384

noncomputable section

namespace Cert.KernelIdeal.Entry0

open Cert.KernelIdeal Cert.KernelIdeal.Gen Cert.KernelIdeal.HostSide
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

set_option maxHeartbeats 4000000 in
/-- The features window's array: the node features as launched. -/
theorem feat (c : Dev nD) : V3 m ρ c main_arg0 = m ((c : Thread nD τ).loc main_arg0) := by
  dsimp only [V3, W3, W2, W1, hostOps0, hostOps0_1, hostOps0_2]; after_results <;> rfl

set_option maxHeartbeats 4000000 in
/-- The messages window's array: the aggregation of the launched node features along the launched edges. -/
theorem msgs (c : Dev nD) : V3 m ρ c main_v15
    = aggregate (m ((c : Thread nD τ).loc main_arg0)) (srcOf (m ((c : Thread nD τ).loc main_arg1)))
        (dstOf (m ((c : Thread nD τ).loc main_arg1))) (m ((c : Thread nD τ).loc main_arg2)) := by
  dsimp only [V3, W3, W2, W1, hostOps0, hostOps0_1, hostOps0_2]; after_results <;> rfl

set_option maxHeartbeats 4000000 in
/-- The weights window's array: the first weight matrix as launched. -/
theorem wts (c : Dev nD) : V3 m ρ c main_arg3 = m ((c : Thread nD τ).loc main_arg3) := by
  dsimp only [V3, W3, W2, W1, hostOps0, hostOps0_1, hostOps0_2]; after_results <;> rfl

set_option maxHeartbeats 4000000 in
/-- The bias window's array: the first bias as launched, recast as one row. -/
theorem bias (c : Dev nD) : V3 m ρ c main_v16 = shapeCast S1x128 (m ((c : Thread nD τ).loc main_arg4)) shapeCasts_S128_S1x128 := by
  dsimp only [V3, W3, W2, W1, hostOps0, hostOps0_1, hostOps0_2]; after_results <;> rfl

end Cert.KernelIdeal.Entry0

end
-- ==== Proof.Kept0.lean ====
/-
  Buffers the second layer reads that were settled before the first region: the edge sources and destinations
  (sliced from the edge list once, at the start), and the argument arrays the second layer uses. At the first
  region's entry they hold what the launch memory determines; the region itself writes none of them.
-/
import proofs.«144178_j1073741824404_2_alg».proof.Proof.Gen.KernelIdeal.Frame
import proofs.«144178_j1073741824404_2_alg».proof.Proof.KernelAgg
import Idealize.ShloMosaic.Lib.StableHlo.Run

set_option maxRecDepth 16384

noncomputable section

namespace Cert.KernelIdeal.Kept0

open Cert.KernelIdeal Cert.KernelIdeal.Gen Cert.KernelIdeal.HostSide
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

set_option maxHeartbeats 4000000 in
theorem src (c : Dev nD) : W3 m ρ c (Proc.devRef .tc main_v1) = srcOf (m ((c : Thread nD τ).loc main_arg1)) := by
  dsimp only [W3, W2, W1, hostOps0, hostOps0_1, hostOps0_2]; after_results <;> rfl

set_option maxHeartbeats 4000000 in
theorem dst (c : Dev nD) : W3 m ρ c (Proc.devRef .tc main_v3) = dstOf (m ((c : Thread nD τ).loc main_arg1)) := by
  dsimp only [W3, W2, W1, hostOps0, hostOps0_1, hostOps0_2]; after_results <;> rfl

set_option maxHeartbeats 4000000 in
theorem attrs (c : Dev nD) : W3 m ρ c (Proc.devRef .tc main_arg2) = m ((c : Thread nD τ).loc main_arg2) := by
  dsimp only [W3, W2, W1, hostOps0, hostOps0_1, hostOps0_2]; after_results <;> rfl

set_option maxHeartbeats 4000000 in
theorem wts2 (c : Dev nD) : W3 m ρ c (Proc.devRef .tc main_arg5) = m ((c : Thread nD τ).loc main_arg5) := by
  dsimp only [W3, W2, W1, hostOps0, hostOps0_1, hostOps0_2]; after_results <;> rfl

set_option maxHeartbeats 4000000 in
theorem bias2 (c : Dev nD) : W3 m ρ c (Proc.devRef .tc main_arg6) = m ((c : Thread nD τ).loc main_arg6) := by
  dsimp only [W3, W2, W1, hostOps0, hostOps0_1, hostOps0_2]; after_results <;> rfl

end Cert.KernelIdeal.Kept0

end
-- ==== Proof.Entry1.lean ====
/-
  What the second kernel region finds in its four input arrays, in terms of the buffers as the first region left them.

  Between the regions the program repeats the aggregation on the first region's output, with the sources and
  destinations sliced at the start, and reshapes the second bias. So at the second region's entry: the features are
  the first region's output, the messages are its aggregation, the weights are the second weight matrix and the bias
  row the second bias recast, each as the first region's exit left its buffer.
-/
import proofs.«144178_j1073741824404_2_alg».proof.Proof.Gen.KernelIdeal.Frame
import proofs.«144178_j1073741824404_2_alg».proof.Proof.KernelAgg
import Idealize.ShloMosaic.Lib.StableHlo.Run

set_option maxRecDepth 16384

noncomputable section

namespace Cert.KernelIdeal.Entry1

open Cert.KernelIdeal Cert.KernelIdeal.Gen Cert.KernelIdeal.HostSide
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

set_option maxHeartbeats 4000000 in
/-- The features window's array: the first region's output, untouched by the host operations in between. -/
theorem feat (c : Dev nD) : V7 m ρ c main_v17 = W4 m ρ c (Proc.devRef .tc main_v17) := by
  dsimp only [V7, W7, W6, W5, hostOps1, hostOps1_1, hostOps1_2]; after_results <;> rfl

set_option maxHeartbeats 4000000 in
/-- The messages window's array: the aggregation of the first region's output. -/
theorem msgs (c : Dev nD) : V7 m ρ c main_v29
    = aggregate (W4 m ρ c (Proc.devRef .tc main_v17)) (W4 m ρ c (Proc.devRef .tc main_v1))
        (W4 m ρ c (Proc.devRef .tc main_v3)) (W4 m ρ c (Proc.devRef .tc main_arg2)) := by
  dsimp only [V7, W7, W6, W5, hostOps1, hostOps1_1, hostOps1_2]; after_results <;> rfl

set_option maxHeartbeats 4000000 in
/-- The weights window's array: the second weight matrix's buffer. -/
theorem wts (c : Dev nD) : V7 m ρ c main_arg5 = W4 m ρ c (Proc.devRef .tc main_arg5) := by
  dsimp only [V7, W7, W6, W5, hostOps1, hostOps1_1, hostOps1_2]; after_results <;> rfl

set_option maxHeartbeats 4000000 in
/-- The bias window's array: the second bias's buffer, recast as one row. -/
theorem bias (c : Dev nD) : V7 m ρ c main_v30 = shapeCast S1x128 (W4 m ρ c (Proc.devRef .tc main_arg6)) shapeCasts_S128_S1x128 := by
  dsimp only [V7, W7, W6, W5, hostOps1, hostOps1_1, hostOps1_2]; after_results <;> rfl

end Cert.KernelIdeal.Entry1

end
-- ==== Proof.KernelValue.lean ====
/-
  The kernel program's result array is the two-layer specification of the launched arguments.

  The first region's output is the dense update of what it finds: the launched node features, their aggregation,
  the first weights, and the first bias (found recast as a row, which reads back as the bias itself). The host
  operations between the regions touch none of the first region's arrays nor the buffers settled before it, so the
  second region finds the first output, its aggregation along the same edges, the second weights and the second
  bias; its output, the program's result, is the dense update of those.
-/
import proofs.«144178_j1073741824404_2_alg».proof.Proof.Region0
import proofs.«144178_j1073741824404_2_alg».proof.Proof.Region1
import proofs.«144178_j1073741824404_2_alg».proof.Proof.Entry0
import proofs.«144178_j1073741824404_2_alg».proof.Proof.Kept0
import proofs.«144178_j1073741824404_2_alg».proof.Proof.Entry1

set_option maxRecDepth 16384

noncomputable section

namespace Cert.KernelIdeal.Result

open Cert.KernelIdeal Cert.KernelIdeal.Gen Cert.KernelIdeal.HostSide Cert.Gnn
open Idealize.ShloMosaic Idealize.ShloMosaic.TcCoe Idealize.ShloMosaic.ValueIdx Idealize.SL.Sem

variable (m : (ℓ : Loc nD τ sig) → Buf (Elt Ideal) ℓ) (ρ : Dev nD → PrngReg)

/-- A bias vector recast as one row reads back, along that row, as itself. -/
theorem row_of_cast (b : S128.Idx → EReal) :
    (fun l : Bias.Idx => shapeCast S1x128 b shapeCasts_S128_S1x128 (ix2 (0 : Fin 1) (l 0))) = b := by
  funext l
  refine (shapeCast_addUnit_apply ![128] b shapeCasts_S128_S1x128 (ix2 (0 : Fin 1) (l 0))).trans ?_
  refine congrArg b (funext fun a => ?_)
  match a with
  | ⟨0, _⟩ => rfl

/-- The first region leaves in its output array the first layer of the launched arguments. -/
theorem first_output (c : Dev nD) :
    W4 m ρ c (Proc.devRef .tc main_v17)
      = dense (m ((c : Thread nD τ).loc main_arg0)) (aggregate (m ((c : Thread nD τ).loc main_arg0)) (srcOf (m ((c : Thread nD τ).loc main_arg1))) (dstOf (m ((c : Thread nD τ).loc main_arg1))) (m ((c : Thread nD τ).loc main_arg2)))
          (m ((c : Thread nD τ).loc main_arg3)) (m ((c : Thread nD τ).loc main_arg4)) := by
  refine (W4_arr m ρ c 4).trans ((Region0.output (V3 m ρ) c).trans ?_)
  show dense (V3 m ρ c main_arg0) (V3 m ρ c main_v15) (V3 m ρ c main_arg3)
    (fun l : Bias.Idx => V3 m ρ c main_v16 (ix2 (0 : Fin 1) (l 0))) = _
  rw [Entry0.feat m ρ c, Entry0.msgs m ρ c, Entry0.wts m ρ c, Entry0.bias m ρ c, row_of_cast]

/-- The second region leaves in the result array the two-layer specification of the launched arguments. -/
theorem result (c : Dev nD) :
    W8 m ρ c (Proc.devRef .tc main_v31)
      = twoLayers (fun y => aggregate y (srcOf (m ((c : Thread nD τ).loc main_arg1))) (dstOf (m ((c : Thread nD τ).loc main_arg1))) (m ((c : Thread nD τ).loc main_arg2)))
          (m ((c : Thread nD τ).loc main_arg0)) (m ((c : Thread nD τ).loc main_arg3)) (m ((c : Thread nD τ).loc main_arg4)) (m ((c : Thread nD τ).loc main_arg5)) (m ((c : Thread nD τ).loc main_arg6)) := by
  refine (W8_arr m ρ c 4).trans ((Region1.output (V7 m ρ) c).trans ?_)
  show dense (V7 m ρ c main_v17) (V7 m ρ c main_v29) (V7 m ρ c main_arg5)
    (fun l : Bias.Idx => V7 m ρ c main_v30 (ix2 (0 : Fin 1) (l 0))) = _
  rw [Entry1.feat m ρ c, Entry1.msgs m ρ c, Entry1.wts m ρ c, Entry1.bias m ρ c, row_of_cast, first_output m ρ c,
    W4_of_ne m ρ c main_v1 (by decide), Kept0.src m ρ c, W4_of_ne m ρ c main_v3 (by decide), Kept0.dst m ρ c,
    W4_of_ne m ρ c main_arg2 (by decide), Kept0.attrs m ρ c, W4_of_ne m ρ c main_arg5 (by decide), Kept0.wts2 m ρ c,
    W4_of_ne m ρ c main_arg6 (by decide), Kept0.bias2 m ρ c]
  rfl

end Cert.KernelIdeal.Result

end
-- ==== Proof.RefLayer.lean ====
/-
  The reference's dense update, as the host operations spell it, is the dense update of the specification.

  The reference computes max(dot(y + a, W) + B, 0) with `dot` the host's general dot product contracting the second
  axis of `y + a` with the first of `W`, `B` the bias vector first made a 1 × 128 row and then repeated along the
  40000 rows, and the zero a scalar constant repeated over the array. Over the extended reals the dot product at
  (r, c) is ∑ₖ (y + a)[r,k] · W[k,c], the repeated bias reads b[c], the repeated constant reads the constant: entry
  by entry this is the specification's expression.
-/
import proofs.«144178_j1073741824404_2_alg».proof.ReferenceIdeal
import proofs.«144178_j1073741824404_2_alg».proof.Proof.Gen.ReferenceIdeal
import proofs.«144178_j1073741824404_2_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Gen Cert.Gnn
open Idealize.ShloMosaic Idealize.ShloMosaic.TcCoe Idealize.ShloMosaic.ValueIdx

/-- The host operations of one dense update, applied to features, aggregated messages, weights and bias. -/
def hostDense (y a : FVec Ideal S40000x128 .f32) (W : FVec Ideal S128x128 .f32) (b : FVec Ideal S128 .f32) :
    FVec Ideal S40000x128 .f32 :=
  maximumf
    (addf (Host.dotGeneral (F := Ideal) dot_S40000x128_S128x128_S40000x128_1_0_0_1_n_n none (addf y a) W)
      (broadcastInDim S40000x128 ![0, 1] bcast_S1x128_S40000x128_0_1 (broadcastInDim S1x128 ![1] bcast_S128_S1x128_1 b)))
    (broadcastInDim S40000x128 ![] bcast_S_S40000x128 (constant (F := Ideal) S_ .f32 0x00000000#32))

/-! The operand indices of the host's dot product at an output index and a contraction index: the left operand is
    read at (row, k), the right at (k, column). -/
theorem lhs_row (i : S40000x128.Idx) (q : dot_S40000x128_S128x128_S40000x128_1_0_0_1_n_n.contr.Idx) : (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide),
    dif_pos (show (0 : Fin S40000x128.rank) ∈ dot_S40000x128_S128x128_S40000x128_1_0_0_1_n_n.lhsNonContracting by decide)]
  rfl
theorem lhs_col (i : S40000x128.Idx) (q : dot_S40000x128_S128x128_S40000x128_1_0_0_1_n_n.contr.Idx) : (dot_S40000x128_S128x128_S40000x128_1_0_0_1_n_n.lhsIdx i q 1).val = (q ⟨0, by decide⟩).val :=
  dot_S40000x128_S128x128_S40000x128_1_0_0_1_n_n.lhsIdx_val_of_single rfl i q
theorem rhs_row (i : S40000x128.Idx) (q : dot_S40000x128_S128x128_S40000x128_1_0_0_1_n_n.contr.Idx) : (dot_S40000x128_S128x128_S40000x128_1_0_0_1_n_n.rhsIdx i q 0).val = (q ⟨0, by decide⟩).val :=
  dot_S40000x128_S128x128_S40000x128_1_0_0_1_n_n.rhsIdx_val_of_single rfl i q
theorem rhs_col (i : S40000x128.Idx) (q : dot_S40000x128_S128x128_S40000x128_1_0_0_1_n_n.contr.Idx) : (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide),
    dif_pos (show (1 : Fin S128x128.rank) ∈ dot_S40000x128_S128x128_S40000x128_1_0_0_1_n_n.rhsNonContracting by decide)]
  rfl

/-- The host's dot product at an entry: the sum over the contracted axis, indexed by `Fin 128`. -/
theorem dot_at (l : FVec Ideal S40000x128 .f32) (w : FVec Ideal S128x128 .f32) (r : Fin 40000) (c : Fin 128) :
    Host.dotGeneral (F := Ideal) dot_S40000x128_S128x128_S40000x128_1_0_0_1_n_n none l w (ix2 r c)
      = ∑ k : Fin 128, l (ix2 r k) * w (ix2 k c) := by
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx (ix2 r c) ((ValueIdx.contrEquiv1 dot_S40000x128_S128x128_S40000x128_1_0_0_1_n_n 128 rfl rfl).symm k) = ix2 r k :=
    funext fun a => Fin.ext (by
      match a with
      | ⟨0, _⟩ => exact lhs_row _ _
      | ⟨1, _⟩ => exact (lhs_col _ _).trans hk)
  have er : dot_S40000x128_S128x128_S40000x128_1_0_0_1_n_n.rhsIdx (ix2 r c) ((ValueIdx.contrEquiv1 dot_S40000x128_S128x128_S40000x128_1_0_0_1_n_n 128 rfl rfl).symm k) = ix2 k c :=
    funext fun a => Fin.ext (by
      match a with
      | ⟨0, _⟩ => exact (rhs_row _ _).trans hk
      | ⟨1, _⟩ => exact rhs_col _ _)
  rw [el, er]

/-- The bias, made a row and repeated along the rows, reads its own entry at the column. -/
theorem bias_at (b : S128.Idx → EReal) (r : Fin 40000) (c : Fin 128) :
    broadcastInDim S40000x128 ![0, 1] bcast_S1x128_S40000x128_0_1 (broadcastInDim S1x128 ![1] bcast_S128_S1x128_1 b) (ix2 r c)
      = b (ix1 c) := by
  refine (broadcastInDim_apply _ bcast_S1x128_S40000x128_0_1 _ (ix2 r c) (ix2 (0 : Fin 1) c) (fun a => match a with
    | ⟨0, _⟩ => by show (0 : Nat) = if (1 : Nat) = 1 then 0 else r.val; rw [if_pos rfl]
    | ⟨1, _⟩ => by show c.val = if (128 : Nat) = 1 then 0 else c.val; rw [if_neg (by decide)])).trans ?_
  exact broadcastInDim_apply _ bcast_S128_S1x128_1 b (ix2 (0 : Fin 1) c) (ix1 c) (fun a => match a with
    | ⟨0, _⟩ => by show c.val = if (128 : Nat) = 1 then 0 else c.val; rw [if_neg (by decide)])

/-- The scalar zero repeated over the array reads the zero. -/
theorem zero_at (r : Fin 40000) (c : Fin 128) :
    broadcastInDim S40000x128 ![] bcast_S_S40000x128 (constant (F := Ideal) S_ .f32 0x00000000#32) (ix2 r c) = zeroF :=
  broadcastInDim_apply _ bcast_S_S40000x128 _ (ix2 r c) ix0 (fun a => a.elim0)

/-- Entry by entry, the host operations' dense update is the specification's. -/
theorem hostDense_eq (y a : FVec Ideal S40000x128 .f32) (W : FVec Ideal S128x128 .f32) (b : FVec Ideal S128 .f32) :
    hostDense y a W b = dense y a W b := by
  funext i
  obtain ⟨r, c, rfl⟩ : ∃ (r : Fin 40000) (c : Fin 128), i = ix2 r c := ⟨i 0, i 1, eq_ix2 i⟩
  rw [dense_ix2]
  unfold hostDense denseAt
  refine (maximumf_apply _ _ _).trans ?_
  rw [zero_at, addf_apply, dot_at, bias_at]
  refine congrArg (fun s => max (s + b (ix1 c)) zeroF) (Finset.sum_congr rfl fun k _ => ?_)
  rw [addf_apply]

end Cert.ReferenceIdeal.Layer

end
-- ==== Proof.RefAgg.lean ====
/-
  The message aggregation of one layer, as one function of whole arrays — carried through the proof unopened.

  For node features `x`, edge sources `src` and destinations `dst` (640000 each) and edge attributes `ea`:
  negative sources are wrapped by adding 40000, the source rows of `x` are gathered, the edge attributes are added,
  the sum is rectified, and the rectified messages are summed into the rows their destinations name, starting from
  zeros. Both programs apply exactly these host operations, so nothing about gathering or scattering is needed
  beyond its being the same function on both sides.
-/
import proofs.«144178_j1073741824404_2_alg».proof.ReferenceIdeal
import proofs.«144178_j1073741824404_2_alg».proof.Proof.Gen.ReferenceIdeal
import Idealize.ShloMosaic.PureOps.Ideal

noncomputable section

namespace Cert.ReferenceIdeal.HostSide

open Cert.ReferenceIdeal Cert.ReferenceIdeal.Gen
open Idealize.ShloMosaic Idealize.ShloMosaic.TcCoe

/-- Row 0 of the 2 × 640000 edge list, as a vector: the edges' sources. -/
def srcOf (ei : (⟨S2x640000, .i32⟩ : BufTy).Contents (Elt Ideal)) : (⟨S640000, .i32⟩ : BufTy).Contents (Elt Ideal) :=
  shapeCast _ (extractStridedSlice S1x640000 ![0, 0] ei slices_S2x640000_S1x640000_0_0) shapeCasts_S1x640000_S640000

/-- Row 1 of the edge list: the edges' destinations. -/
def dstOf (ei : (⟨S2x640000, .i32⟩ : BufTy).Contents (Elt Ideal)) : (⟨S640000, .i32⟩ : BufTy).Contents (Elt Ideal) :=
  shapeCast _ (extractStridedSlice S1x640000 ![1, 0] ei slices_S2x640000_S1x640000_1_0) shapeCasts_S1x640000_S640000

/-- Gather along edges, add edge attributes, rectify, sum into destinations. -/
def aggregate (x : (⟨S40000x128, .f32⟩ : BufTy).Contents (Elt Ideal)) (src dst : (⟨S640000, .i32⟩ : BufTy).Contents (Elt Ideal))
    (ea : (⟨S640000x128, .f32⟩ : BufTy).Contents (Elt Ideal)) : (⟨S40000x128, .f32⟩ : BufTy).Contents (Elt Ideal) :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0 dst)
    (maximumf
      (addf
        (Host.gather gather_S40000x128_S640000x1_S640000x128_1_0_n_n_0_1_1128 x
          (broadcastInDim S640000x1 ![0] bcast_S640000_S640000x1_0
            (select (cmpi .slt src (broadcastInDim S640000 ![] bcast_S_S640000 (constantI S_ 32 0#32)))
              (addi src (broadcastInDim S640000 ![] bcast_S_S640000 (constantI S_ 32 40000#32))) src)))
        ea)
      (broadcastInDim S640000x128 ![] bcast_S_S640000x128 (constant (F := Ideal) S_ .f32 0x00000000#32)))

end Cert.ReferenceIdeal.HostSide

end
-- ==== Proof.RefValue.lean ====
/-
  The reference's result is the two-layer specification.

  The reference's run ends with its result at the composed term of its host operations. Read from the outside in,
  that term is the host dense update of (the first layer's output, its aggregation, the second weights and bias),
  the first layer's output being the host dense update of (the node features, their aggregation, the first weights
  and bias). The host dense update is the specification's dense update entry by entry; the aggregation is carried
  unopened.
-/
import proofs.«144178_j1073741824404_2_alg».proof.Proof.Gen.ReferenceIdeal.Read
import proofs.«144178_j1073741824404_2_alg».proof.Proof.RefLayer
import proofs.«144178_j1073741824404_2_alg».proof.Proof.RefAgg

noncomputable section

namespace Cert.ReferenceIdeal.RefValue

open Cert.ReferenceIdeal Cert.ReferenceIdeal.Gen Cert.ReferenceIdeal.Read Cert.ReferenceIdeal.Layer
open Cert.ReferenceIdeal.HostSide Cert.Gnn
open Idealize.ShloMosaic Idealize.ShloMosaic.TcCoe Idealize.SL.Sem

variable (x0 : (⟨S40000x128, .f32⟩ : BufTy).Contents (Elt Ideal)) (x1 : (⟨S2x640000, .i32⟩ : BufTy).Contents (Elt Ideal)) (x2 : (⟨S640000x128, .f32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))

/-- The first scatter's value is the aggregation of the node features. -/
theorem agg_first : val_main_v15 (F := Ideal) x0 x1 x2 = aggregate x0 (srcOf x1) (dstOf x1) x2 := rfl

/-- The first rectified output is the host dense update of the node features and their aggregation. -/
theorem layer_first : val_main_v21 (F := Ideal) x0 x1 x2 x3 x4 = hostDense x0 (val_main_v15 (F := Ideal) x0 x1 x2) x3 x4 := rfl

/-- The second scatter's value is the aggregation of the first layer's output. -/
theorem agg_second : val_main_v33 (F := Ideal) x0 x1 x2 x3 x4
    = aggregate (val_main_v21 (F := Ideal) x0 x1 x2 x3 x4) (srcOf x1) (dstOf x1) x2 := rfl

/-- The result is the host dense update of the first layer's output and its aggregation. -/
theorem layer_second : val_main_v39 (F := Ideal) x0 x1 x2 x3 x4 x5 x6
    = hostDense (val_main_v21 (F := Ideal) x0 x1 x2 x3 x4) (val_main_v33 (F := Ideal) x0 x1 x2 x3 x4) x5 x6 := rfl

/-- The stage chain as the two-layer specification over the edge-wise aggregation. -/
theorem stages_eq : val_main_v39 (F := Ideal) x0 x1 x2 x3 x4 x5 x6
    = twoLayers (fun y => aggregate y (srcOf x1) (dstOf x1) x2) x0 x3 x4 x5 x6 := by
  rw [layer_second, agg_second, layer_first, agg_first, hostDense_eq, hostDense_eq]
  rfl

/-- The reference run's result term is the two-layer specification of the launched arguments. -/
theorem result_eq (m : (ℓ : Loc nD τ sig) → Buf (Elt Ideal) ℓ) (c : Dev nD) :
    Cert.ReferenceIdeal.Value.res_main_v39 m c
      = twoLayers (fun y => aggregate y (srcOf (m ((c.tc : Thread nD τ).loc main_arg1))) (dstOf (m ((c.tc : Thread nD τ).loc main_arg1)))
            (m ((c.tc : Thread nD τ).loc main_arg2)))
          (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) :=
  (val_main_v39_eq m c).trans (stages_eq _ _ _ _ _ _ _)

end Cert.ReferenceIdeal.RefValue

end
-- ==== Proof.Bridge.lean ====
/-
  The two programs' aggregations are one function: each program's text names its own copies of the same gather,
  scatter, slice and broadcast descriptions, and the copies are equal field by field.
-/
import proofs.«144178_j1073741824404_2_alg».proof.Proof.KernelAgg
import proofs.«144178_j1073741824404_2_alg».proof.Proof.RefAgg

noncomputable section

namespace Cert.Bridge

theorem srcOf_eq : Cert.KernelIdeal.HostSide.srcOf = Cert.ReferenceIdeal.HostSide.srcOf := rfl

theorem dstOf_eq : Cert.KernelIdeal.HostSide.dstOf = Cert.ReferenceIdeal.HostSide.dstOf := rfl

theorem aggregate_eq : Cert.KernelIdeal.HostSide.aggregate = Cert.ReferenceIdeal.HostSide.aggregate := rfl

end Cert.Bridge

end
-- ==== Proof.lean ====
/-
  Two stacked message-passing layers with a rectifier: the kernel program against its reference, over the
  extended reals.

  One layer maps node features x (40000 × 128) to max((x + A(x)) · W + b, 0), where A(x) sums, into each
  destination node, the rectified sums of a source node's features and the edge's attributes. The kernel program
  computes A(x) with host operations and the dense update max((x + A(x)) · W + b, 0) in a kernel region that walks
  four blocks of 10000 rows; the reference computes both with host operations. Entry by entry the two dense updates
  are the same expression — a matrix product into a zero accumulator and a host dot product are both the plain sum
  over the contracted axis, a bias row repeated along the rows reads the bias entry of the column either way — and
  the aggregations are the same host operations on both sides. So both programs end with the same function of the
  arguments, `Cert.Gnn.twoLayers`; no entry needs to be finite for this, since only the reindexing of a finite sum
  is used.

  The three frames: the two kernel programs' are the generated frame certificates; the reference's is its generated
  run with the result dropped. The idealization rewrote nothing, so its soundness claim is trivial.
-/
import proofs.«144178_j1073741824404_2_alg».proof.Defs
import proofs.«144178_j1073741824404_2_alg».proof.Proof.Gen.Kernel
import proofs.«144178_j1073741824404_2_alg».proof.Proof.Gen.Kernel.Frame
import proofs.«144178_j1073741824404_2_alg».proof.Proof.Gen.KernelIdeal
import proofs.«144178_j1073741824404_2_alg».proof.Proof.Gen.KernelIdeal.Frame
import proofs.«144178_j1073741824404_2_alg».proof.Proof.Gen.ReferenceIdeal
import proofs.«144178_j1073741824404_2_alg».proof.Proof.Gen.ReferenceIdeal.Run
import proofs.«144178_j1073741824404_2_alg».proof.Proof.Gen.ReferenceIdeal.Read
import proofs.«144178_j1073741824404_2_alg».proof.Proof.Gen.Pre_finite_inputs
import proofs.«144178_j1073741824404_2_alg».proof.Proof.KernelRun
import proofs.«144178_j1073741824404_2_alg».proof.Proof.KernelValue
import proofs.«144178_j1073741824404_2_alg».proof.Proof.RefValue
import proofs.«144178_j1073741824404_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the two-layer specification of those arguments
    in their result arrays: the kernel program by its regions' dense updates, the reference by its host operations'. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Result.result m ρ c), (h c).2⟩)
      (Cert.KernelIdeal.Run.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq m' c, (hagree c).1, (hagree c).2.1, (hagree c).2.2.1, (hagree c).2.2.2.1,
    (hagree c).2.2.2.2.1, (hagree c).2.2.2.2.2.1, (hagree c).2.2.2.2.2.2,
    ← Cert.Bridge.aggregate_eq, ← Cert.Bridge.srcOf_eq, ← Cert.Bridge.dstOf_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
